-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x512x4096 : Shape := ⟨3, ![8, 512, 4096]⟩
abbrev S8x512 : Shape := ⟨2, ![8, 512]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x512x4096 : S_.BroadcastsInDim S8x512x4096 (![] : Fin 0 → Fin S8x512x4096.rank)
  reducesTo_S8x512x4096_S_d0_1_2 : S8x512x4096.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x4096x256 .f32) (main_arg1 : FVec F S8x512x4096 .f32) (main_arg2 : FVec F S8x512 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x4096x256 : Shape := ⟨3, ![8, 4096, 256]⟩
abbrev S8x512x4096 : Shape := ⟨3, ![8, 512, 4096]⟩
abbrev S8x512 : Shape := ⟨2, ![8, 512]⟩
abbrev S8x512x1 : Shape := ⟨3, ![8, 512, 1]⟩
abbrev S8x512x256 : Shape := ⟨3, ![8, 512, 256]⟩
abbrev S1x512x4096 : Shape := ⟨3, ![1, 512, 4096]⟩
abbrev S1x4096x256 : Shape := ⟨3, ![1, 4096, 256]⟩
abbrev S1x512x1 : Shape := ⟨3, ![1, 512, 1]⟩
abbrev S1x512x256 : Shape := ⟨3, ![1, 512, 256]⟩
abbrev S512x4096 : Shape := ⟨2, ![512, 4096]⟩
abbrev S4096x256 : Shape := ⟨2, ![4096, 256]⟩
abbrev S512x256 : Shape := ⟨2, ![512, 256]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x256, .f32⟩
  | .hbm, ⟨1, _⟩ => ⟨S8x512x4096, .f32⟩
  | .hbm, ⟨2, _⟩ => ⟨S8x512, .f32⟩
  | .hbm, ⟨3, _⟩ => ⟨S8x512x1, .f32⟩
  | .hbm, ⟨4, _⟩ => ⟨S8x512x256, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x256, .f32⟩
  | .local _ .vmem, ⟨3, _⟩ => ⟨S1x4096x256, .f32⟩
  | .local _ .vmem, ⟨4, _⟩ => ⟨S1x512x1, .f32⟩
  | .local _ .vmem, ⟨5, _⟩ => ⟨S1x512x1, .f32⟩
  | .local _ .vmem, ⟨6, _⟩ => ⟨S1x512x256, .f32⟩
  | .local _ .vmem, ⟨7, _⟩ => ⟨S1x512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512_S8x512x1 : S8x512.ShapeCasts S8x512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .f32 = 32 ∨ (Rect.block (s := S8x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .f32 = 32 ∨ (Rect.block (s := S8x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x512x256.size a
  hwx0_3 : ∀ i : grid0.Coords, EltTy.bits .f32 = 32 ∨ (Rect.block (s := S8x512x256) S1x512x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x512x4096 : Shape := ⟨3, ![8, 512, 4096]⟩
abbrev S8x512 : Shape := ⟨2, ![8, 512]⟩
abbrev S8x512x256 : Shape := ⟨3, ![8, 512, 256]⟩
abbrev S8x512x1 : Shape := ⟨3, ![8, 512, 1]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x512x4096, .f32⟩
  | .hbm, ⟨2, _⟩ => ⟨S8x512, .f32⟩
  | .hbm, ⟨3, _⟩ => ⟨S8x512x256, .f32⟩
  | .hbm, ⟨4, _⟩ => ⟨S8x512x1, .f32⟩
  | .hbm, ⟨5, _⟩ => ⟨S8x512x256, .f32⟩
  | .hbm, ⟨6, _⟩ => ⟨S8x512x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x512_S8x512x1_0_1 : S8x512.BroadcastsInDim S8x512x1 (![0, 1] : Fin 2 → Fin S8x512x1.rank)
  bcast_S8x512x1_S8x512x256_0_1_2 : S8x512x1.BroadcastsInDim S8x512x256 (![0, 1, 2] : Fin 3 → Fin S8x512x256.rank)
  dot_S8x512x4096_S8x4096x256_S8x512x256_2_1_1_2_0_0_wf : DotDims.WF S8x512x4096 S8x4096x256 S8x512x256 [2] [1] [1] [2] [0] [0]

variable [Facts₀]

def dot_S8x512x4096_S8x4096x256_S8x512x256_2_1_1_2_0_0 : DotDims S8x512x4096 S8x4096x256 S8x512x256 where
  lhsContracting := [2]
  rhsContracting := [1]
  lhsNonContracting := [1]
  rhsNonContracting := [2]
  lhsBatch := [0]
  rhsBatch := [0]
  wf := dot_S8x512x4096_S8x4096x256_S8x512x256_2_1_1_2_0_0_wf

class Facts : Prop extends Facts₀ where

variable [Facts]
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockPayload.lean ====
/-
  One batch's block of the kernel, read at an index.

  At a grid point the kernel body holds one batch: the mapping block `[1, 512, 4096]`, the document block
  `[1, 4096, 256]` and the lengths block `[1, 512, 1]`. It drops the unit batch axis of the first two, multiplies the
  `512 × 4096` matrix by the `4096 × 256` matrix into a zero accumulator, spreads the lengths column across the `256`
  features, divides, and puts the unit axis back. At the ideal values the narrowing of the two factors to a shorter
  float format changes nothing, and a matrix product into zero is the plain sum of products, so the stored block at
  `(0, e, d)` is

      (∑ l, mapping (0, e, l) · document (0, l, d)) / lengths (0, e, 0).
-/
import proofs.«103136_j50869592654341_1_alg».proof.Proof.Gen.KernelIdeal.Skeleton
import proofs.«103136_j50869592654341_1_alg».proof.Proof.LibColumnBroadcast
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The left factor's index at an output index keeps the output's row; -/
theorem lhs_row (j : S512x256.Idx) (q : dot_S512x4096_S4096x256_S512x256_1_0_0_1_n_n.contr.Idx) :
    (dot_S512x4096_S4096x256_S512x256_1_0_0_1_n_n.lhsIdx j q 0).val = (j 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- its column is the contracted position. -/
theorem lhs_col (j : S512x256.Idx) (q : dot_S512x4096_S4096x256_S512x256_1_0_0_1_n_n.contr.Idx) :
    (dot_S512x4096_S4096x256_S512x256_1_0_0_1_n_n.lhsIdx j q 1).val = (q ⟨0, by decide⟩).val :=
  dot_S512x4096_S4096x256_S512x256_1_0_0_1_n_n.lhsIdx_val_of_single rfl j q
/-- The right factor's row is the contracted position; -/
theorem rhs_row (j : S512x256.Idx) (q : dot_S512x4096_S4096x256_S512x256_1_0_0_1_n_n.contr.Idx) :
    (dot_S512x4096_S4096x256_S512x256_1_0_0_1_n_n.rhsIdx j q 0).val = (q ⟨0, by decide⟩).val :=
  dot_S512x4096_S4096x256_S512x256_1_0_0_1_n_n.rhsIdx_val_of_single rfl j q
/-- its column is the output's column. -/
theorem rhs_col (j : S512x256.Idx) (q : dot_S512x4096_S4096x256_S512x256_1_0_0_1_n_n.contr.Idx) :
    (dot_S512x4096_S4096x256_S512x256_1_0_0_1_n_n.rhsIdx j q 1).val = (j 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The body's matrix product into the zero accumulator, at row `e` and column `d`: the sum over the contracted
    position `l` of the left factor at `(e, l)` times the right factor at `(l, d)`. -/
theorem product_apply (A : FVec Ideal S512x4096 .bf16) (B : FVec Ideal S4096x256 .bf16) (e : Fin 512) (d : Fin 256) :
    matmul dot_S512x4096_S4096x256_S512x256_1_0_0_1_n_n none A B (constant (F := Ideal) S512x256 .f32 0x00000000#32) (ix2 e d)
      = ∑ l : Fin 4096, A (ix2 e l) * B (ix2 l d) := by
  show FloatOps.matmul dot_S512x4096_S4096x256_S512x256_1_0_0_1_n_n none A B (constant (F := Ideal) S512x256 .f32 0x00000000#32) (ix2 e d) = _
  rw [Ideal.matmul_constant_zero_apply, ← Equiv.sum_comp (contrEquiv1 dot_S512x4096_S4096x256_S512x256_1_0_0_1_n_n 4096 rfl rfl).symm]
  refine Finset.sum_congr rfl fun l _ => ?_
  have hl := contrEquiv1_symm_val dot_S512x4096_S4096x256_S512x256_1_0_0_1_n_n 4096 rfl rfl l
  have el : dot_S512x4096_S4096x256_S512x256_1_0_0_1_n_n.lhsIdx (ix2 e d) ((contrEquiv1 dot_S512x4096_S4096x256_S512x256_1_0_0_1_n_n 4096 rfl rfl).symm l) = ix2 e l := funext fun a => Fin.ext (by
    match a with
    | ⟨0, _⟩ => exact lhs_row _ _
    | ⟨1, _⟩ => exact (lhs_col _ _).trans hl)
  have er : dot_S512x4096_S4096x256_S512x256_1_0_0_1_n_n.rhsIdx (ix2 e d) ((contrEquiv1 dot_S512x4096_S4096x256_S512x256_1_0_0_1_n_n 4096 rfl rfl).symm l) = ix2 l d := funext fun a => Fin.ext (by
    match a with
    | ⟨0, _⟩ => exact (rhs_row _ _).trans hl
    | ⟨1, _⟩ => exact rhs_col _ _)
  rw [el, er]

/-- THE STORED BLOCK at `(0, e, d)`: the mapping-weighted sum of the document block over its positions, divided by the
    length of row `e`. -/
theorem pay_apply (x0 : Vec Ideal S1x512x4096 .f32) (x1 : Vec Ideal S1x4096x256 .f32) (x2 : Vec Ideal S1x512x1 .f32)
    (u : Fin 1) (e : Fin 512) (d : Fin 256) :
    k0_pay1 (F := Ideal) x0 x1 x2 (ix3 u e d)
      = Ideal.div (∑ l : Fin 4096, x0 (ix3 (0 : Fin 1) e l) * x1 (ix3 (0 : Fin 1) l d)) (x2 (ix3 (0 : Fin 1) e (0 : Fin 1))) := by
  unfold k0_pay1
  refine (shapeCast_ab_1ab_apply _ _ u e d).trans ?_
  show Ideal.div (matmul dot_S512x4096_S4096x256_S512x256_1_0_0_1_n_n none _ _ (constant (F := Ideal) S512x256 .f32 0x00000000#32) (ix2 e d)) (broadcastTo S512x256 _ _ (ix2 e d)) = _
  rw [product_apply, broadcastTo_a1_ab_apply, shapeCast_1ab_ab_apply]
  refine congrArg (fun s => Ideal.div s _) (Finset.sum_congr rfl fun l _ => ?_)
  show shapeCast S512x4096 x0 _ (ix2 e l) * shapeCast S4096x256 x1 _ (ix2 l d) = _
  rw [shapeCast_1ab_ab_apply, shapeCast_1ab_ab_apply]

end Cert.KernelIdeal.BlockValue

end
-- ==== Proof.PooledMean.lean ====
/-
  The specification: mean pooling of document states into entities.

  For a batch `b`, an entity `e` and a feature `d`, the pooled value is the mapping-weighted sum of the document's
  states over its `4096` positions, divided by the entity's length:

      pooledMean doc map lens (b, e, d) = (∑ l, map (b, e, l) · doc (b, l, d)) / lens (b, e)

  over the extended reals, the quotient being the exact division of the ideal arithmetic (`Ideal.div`). Both programs
  of this certificate compute this one function of their three argument arrays; no rearrangement of the sum and no
  law of the quotient is needed to see it, so nothing here asks the inputs to be finite.
-/
import Idealize.ShloMosaic.PureOps.Ideal
import Idealize.ShloMosaic.Lib.ValueIdx

noncomputable section

namespace Cert.MeanPool

open Idealize.ShloMosaic Idealize.ShloMosaic.ValueIdx

/-- The pooled mean at `(b, e, d)`: the sum over the positions `l` of `map (b, e, l) · doc (b, l, d)`, divided by
    `lens (b, e)`. -/
def pooledMean (doc : (⟨3, ![8, 4096, 256]⟩ : Shape).Idx → EReal) (map : (⟨3, ![8, 512, 4096]⟩ : Shape).Idx → EReal)
    (lens : (⟨2, ![8, 512]⟩ : Shape).Idx → EReal) : (⟨3, ![8, 512, 256]⟩ : Shape).Idx → EReal :=
  fun i => Ideal.div (∑ l : Fin 4096, map (ix3 (i 0) (i 1) l) * doc (ix3 (i 0) l (i 2))) (lens (ix2 (i 0) (i 1)))

/-- The same at an index given by its coordinates. -/
theorem pooledMean_apply (doc : (⟨3, ![8, 4096, 256]⟩ : Shape).Idx → EReal) (map : (⟨3, ![8, 512, 4096]⟩ : Shape).Idx → EReal)
    (lens : (⟨2, ![8, 512]⟩ : Shape).Idx → EReal) (b : Fin 8) (e : Fin 512) (d : Fin 256) :
    pooledMean doc map lens (ix3 b e d)
      = Ideal.div (∑ l : Fin 4096, map (ix3 b e l) * doc (ix3 b l d)) (lens (ix2 b e)) := rfl

end Cert.MeanPool

end
-- ==== Proof.KernelMean.lean ====
/-
  The kernel's result array is the pooled mean.

  The grid has one point per batch. At point `t` the mapping window holds rows `(t, ·, ·)` of the mapping, the
  document window rows `(t, ·, ·)` of the document states, the lengths window rows `(t, ·, 0)` of the lengths kept
  as a column (the host reshapes `[8, 512]` to `[8, 512, 1]` before the call, which moves no element: entry
  `(b, e, 0)` of the column is entry `(b, e)` of the lengths), and the output window is written back to rows
  `(t, ·, ·)` of the result. So what point `t` writes back at `(0, e, d)` — the block's mapping-weighted sum over the
  positions divided by the block's length of row `e` — is the pooled mean at `(t, e, d)`. Every index `(b, e, d)` of
  the result lies in the block of point `b`, so the whole array ends at the pooled mean.
-/
import proofs.«103136_j50869592654341_1_alg».proof.Proof.Gen.KernelIdeal.Value
import proofs.«103136_j50869592654341_1_alg».proof.Proof.BlockPayload
import proofs.«103136_j50869592654341_1_alg».proof.Proof.PooledMean
import Idealize.ShloMosaic.Lib.StableHlo.Run
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MeanPool Cert.KernelIdeal.BlockValue

variable (m : (ℓ : Loc nD τ sig) → Buf (Elt Ideal) ℓ) (ρ : Dev nD → PrngReg)

/-- The body's loads and its store start at the origin of their buffers. -/
theorem origin : (![0, 0, 0] : Fin 3 → Nat) = fun _ => 0 := funext fun a => by fin_cases a <;> rfl

/-- Every window's block at point `t` is batch `t`: block index `(t, 0, 0)` (decided over the 8 points). -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The lengths column the region finds -/

/-- The host's reshape leaves, in the column's buffer, the lengths in row-major order at the column's shape. -/
theorem lengths_column (c : Dev nD) :
    (V m c main_v0 : S8x512x1.Idx → EReal) = shapeCast S8x512x1 (m ((c : Thread nD τ).loc main_arg2)) shapeCasts_S8x512_S8x512x1 := by
  dsimp only [Gen.V, Gen.hostOps0]; after_results; rfl

/-- Entry `(b, e, 0)` of the column is entry `(b, e)` of the lengths. -/
theorem lengths_column_apply (c : Dev nD) (b : Fin 8) (e : Fin 512) (u : Fin 1) :
    (V m c main_v0 : S8x512x1.Idx → EReal) (ix3 b e u) = (m ((c : Thread nD τ).loc main_arg2)) (ix2 b e) := by
  rw [lengths_column]
  refine shapeCast_apply _ _ _ _ ?_
  show (S8x512.rowMajor (ix2 b e)).val = (S8x512x1.rowMajor (ix3 b e u)).val
  rw [Shape.rowMajor_val_two, Shape.rowMajor_val_three]
  show b.val * 512 + e.val = (b.val * 512 + e.val) * 1 + u.val
  omega

/-! ## The blocks at a point -/

/-- The mapping block of point `t` at `(0, e, l)` is the mapping at `(t, e, l)`. -/
theorem mapping_block (c : Dev nD) (t : Fin cfg0.N) (hb : t.val < 8) (e : Fin 512) (l : Fin 4096) :
    iblk m c 0 t (ix3 (0 : Fin 1) e l : S1x512x4096.Idx) = (m ((c : Thread nD τ).loc main_arg1)) (ix3 (⟨t.val, hb⟩ : Fin 8) e l) := by
  obtain ⟨h0, h1, h2, -⟩ := block_indices t
  show V m c main_arg1 (((cfg0.win 0).blk t).view.emb (ix3 (0 : Fin 1) e l : S1x512x4096.Idx)) = _
  rw [V_main_arg1]
  refine congrArg _ (funext fun a => Fin.ext ?_)
  match a with
  | ⟨0, _⟩ => show win0_0.index t (0 : Fin 3) * 1 + 1 * (0 : Fin 1).val = t.val; rw [h0]; show t.val * 1 + 1 * 0 = t.val; omega
  | ⟨1, _⟩ => show win0_0.index t (1 : Fin 3) * 512 + 1 * e.val = e.val; rw [h1]; omega
  | ⟨2, _⟩ => show win0_0.index t (2 : Fin 3) * 4096 + 1 * l.val = l.val; rw [h2]; omega

/-- The document block of point `t` at `(0, l, d)` is the document state at `(t, l, d)`. -/
theorem document_block (c : Dev nD) (t : Fin cfg0.N) (hb : t.val < 8) (l : Fin 4096) (d : Fin 256) :
    iblk m c 1 t (ix3 (0 : Fin 1) l d : S1x4096x256.Idx) = (m ((c : Thread nD τ).loc main_arg0)) (ix3 (⟨t.val, hb⟩ : Fin 8) l d) := by
  obtain ⟨-, -, -, h0, h1, h2, -⟩ := block_indices t
  show V m c main_arg0 (((cfg0.win 1).blk t).view.emb (ix3 (0 : Fin 1) l d : S1x4096x256.Idx)) = _
  rw [V_main_arg0]
  refine congrArg _ (funext fun a => Fin.ext ?_)
  match a with
  | ⟨0, _⟩ => show win0_1.index t (0 : Fin 3) * 1 + 1 * (0 : Fin 1).val = t.val; rw [h0]; show t.val * 1 + 1 * 0 = t.val; omega
  | ⟨1, _⟩ => show win0_1.index t (1 : Fin 3) * 4096 + 1 * l.val = l.val; rw [h1]; omega
  | ⟨2, _⟩ => show win0_1.index t (2 : Fin 3) * 256 + 1 * d.val = d.val; rw [h2]; omega

/-- The lengths block of point `t` at `(0, e, 0)` is the length at `(t, e)`. -/
theorem lengths_block (c : Dev nD) (t : Fin cfg0.N) (hb : t.val < 8) (e : Fin 512) :
    iblk m c 2 t (ix3 (0 : Fin 1) e (0 : Fin 1) : S1x512x1.Idx) = (m ((c : Thread nD τ).loc main_arg2)) (ix2 (⟨t.val, hb⟩ : Fin 8) e) := by
  obtain ⟨-, -, -, -, -, -, h0, h1, h2, -⟩ := block_indices t
  refine Eq.trans ?_ (lengths_column_apply m c ⟨t.val, hb⟩ e (0 : Fin 1))
  show V m c main_v0 (((cfg0.win 2).blk t).view.emb (ix3 (0 : Fin 1) e (0 : Fin 1) : S1x512x1.Idx)) = _
  refine congrArg _ (funext fun a => Fin.ext ?_)
  match a with
  | ⟨0, _⟩ => show win0_2.index t (0 : Fin 3) * 1 + 1 * (0 : Fin 1).val = t.val; rw [h0]; show t.val * 1 + 1 * 0 = t.val; omega
  | ⟨1, _⟩ => show win0_2.index t (1 : Fin 3) * 512 + 1 * e.val = e.val; rw [h1]; omega
  | ⟨2, _⟩ => show win0_2.index t (2 : Fin 3) * 1 + 1 * (0 : Fin 1).val = (0 : Fin 1).val; rw [h2]; show 0 * 1 + 1 * 0 = 0; omega

/-- The output block of point `t` at `(u, e, d)` sits at `(t, e, d)` of the result. -/
theorem output_block (t : Fin cfg0.N) (hb : t.val < 8) (u : Fin 1) (e : Fin 512) (d : Fin 256) :
    ((cfg0.win 3).blk t).view.emb (ix3 u e d : S1x512x256.Idx) = (ix3 (⟨t.val, hb⟩ : Fin 8) e d : S8x512x256.Idx) := by
  obtain ⟨-, -, -, -, -, -, -, -, -, h0, h1, h2⟩ := block_indices t
  have hu : u.val = 0 := by omega
  refine funext fun a => Fin.ext ?_
  match a with
  | ⟨0, _⟩ => show win0_3.index t (0 : Fin 3) * 1 + 1 * u.val = t.val; rw [h0, hu]; omega
  | ⟨1, _⟩ => show win0_3.index t (1 : Fin 3) * 512 + 1 * e.val = e.val; rw [h1]; omega
  | ⟨2, _⟩ => show win0_3.index t (2 : Fin 3) * 256 + 1 * d.val = d.val; rw [h2]; omega

/-! ## What a point writes back, and the whole array -/

/-- WHAT POINT `t` WRITES BACK is block `t` of the pooled mean of the three argument arrays. -/
theorem flushed_eq (c : Dev nD) (t : Fin cfg0.N) :
    (dats m 0 c).flushed 3 t = ((cfg0.win 3).blk t).view.read (Elt Ideal) (pooledMean (m ((c : Thread nD τ).loc main_arg0)) (m ((c : Thread nD τ).loc main_arg1)) (m ((c : Thread nD τ).loc main_arg2))) := by
  have hb : t.val < 8 := lt_of_lt_of_eq t.isLt N_0
  rw [Cert.KernelIdeal.Value.flushed3]
  unfold out0_3
  rw [View.canon_unit_zero origin]
  simp only [View.ld_unit_zero (S := S1x512x4096) origin, View.ld_unit_zero (S := S1x4096x256) origin, View.ld_unit_zero (S := S1x512x1) origin]
  refine funext fun (j : S1x512x256.Idx) => ?_
  obtain ⟨u, e, d, rfl⟩ : ∃ (u : Fin 1) (e : Fin 512) (d : Fin 256), j = ix3 u e d := ⟨j 0, j 1, j 2, eq_ix3 j⟩
  show k0_pay1 (F := Ideal) (iblk m c 0 t) (iblk m c 1 t) (iblk m c 2 t) (ix3 u e d)
    = pooledMean (m ((c : Thread nD τ).loc main_arg0)) (m ((c : Thread nD τ).loc main_arg1)) (m ((c : Thread nD τ).loc main_arg2)) (((cfg0.win 3).blk t).view.emb (ix3 u e d : S1x512x256.Idx))
  rw [output_block t hb u e d, pooledMean_apply]
  refine (pay_apply (iblk m c 0 t) (iblk m c 1 t) (iblk m c 2 t) u e d).trans ?_
  rw [lengths_block m c t hb e]
  refine congrArg (fun s => Ideal.div s _) (Finset.sum_congr rfl fun l _ => ?_)
  rw [mapping_block m c t hb e l, document_block m c t hb l d]

/-- An index of the result is in point `t`'s block iff each coordinate is in the block's range on its axis. -/
theorem mem_block (t : Fin cfg0.N) (i : S8x512x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v1).slice (win0_3.rect t)).set ↔ _
  rw [View.set_slice_whole, Rect.mem_set_unit]
  exact Iff.rfl

/-- Every index `(b, e, d)` of the result is in the block of point `b`, which writes back. -/
theorem covered (i : S8x512x256.Idx) :
    ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 256 := (i 2).isLt
  have hN : (i 0).val < cfg0.N := lt_of_lt_of_eq hi0 N_0.symm
  obtain ⟨-, -, -, -, -, -, -, -, -, h0, h1, h2⟩ := block_indices ⟨(i 0).val, hN⟩
  refine ⟨⟨(i 0).val, hN⟩, flush0_3 _, ?_⟩
  rw [mem_block]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [h0]; show (i 0).val * 1 ≤ (i 0).val ∧ (i 0).val < (i 0).val * 1 + 1; omega
  | ⟨1, _⟩ =>
    show win0_3.index ⟨(i 0).val, hN⟩ (1 : Fin 3) * 512 ≤ (i 1).val ∧ (i 1).val < win0_3.index ⟨(i 0).val, hN⟩ (1 : Fin 3) * 512 + 512
    rw [h1]; omega
  | ⟨2, _⟩ =>
    show win0_3.index ⟨(i 0).val, hN⟩ (2 : Fin 3) * 256 ≤ (i 2).val ∧ (i 2).val < win0_3.index ⟨(i 0).val, hN⟩ (2 : Fin 3) * 256 + 256
    rw [h2]; omega

/-- THE RESULT ARRAY after the run is the pooled mean of the three argument arrays. -/
theorem final (c : Dev nD) : (dats m 0 c).arrAt 3 cfg0.N = pooledMean (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution terminates with the result array at the pooled mean of the arguments'
    launch contents, the arguments unchanged. -/
theorem run : θ_run defs (onTc (τ := τ) (main (F := Ideal))) ⟨m, fun _ => 0, ρ⟩ fun r => ∀ c : Dev nD,
      r.2.mem ((c : Thread nD τ).loc main_v1) = pooledMean (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.ReferenceMean.lean ====
/-
  The reference computes the pooled mean.

  The reference contracts the mapping with the document states over the positions, batch by batch, and divides the
  result by the lengths, each length repeated across its entity's features. Read one operation at a time at an index
  `(b, e, d)`: the contraction is the sum over `l` of `map (b, e, l) · doc (b, l, d)`; the two broadcasts of the lengths
  read `lens (b, e)`; the quotient is the ideal arithmetic's exact division. That is `pooledMean` word for word.
-/
import proofs.«103136_j50869592654341_1_alg».proof.Proof.Gen.ReferenceIdeal.Read
import proofs.«103136_j50869592654341_1_alg».proof.Proof.PooledMean

noncomputable section

namespace Cert.ReferenceIdeal.RefValue

open Cert.ReferenceIdeal Cert.ReferenceIdeal.Gen Cert.ReferenceIdeal.Read Idealize.ShloMosaic Idealize.ShloMosaic.ValueIdx
open Cert.MeanPool

/-- The reference's last stage, as a function of the three argument arrays, is the pooled mean. -/
theorem stage_eq (x0 : (⟨S8x4096x256, .f32⟩ : BufTy).Contents (Elt Ideal)) (x1 : (⟨S8x512x4096, .f32⟩ : BufTy).Contents (Elt Ideal))
    (x2 : (⟨S8x512, .f32⟩ : BufTy).Contents (Elt Ideal)) :
    val_main_v3 (F := Ideal) x0 x1 x2 = pooledMean x0 x1 x2 := by
  funext i
  have e1 : ∀ l : Fin 4096, lidx_main_v0 i l = ix3 (i 0) (i 1) l := fun l => funext fun a => Fin.ext (by
    match a with | ⟨0, _⟩ => rfl | ⟨1, _⟩ => rfl | ⟨2, _⟩ => rfl)
  have e2 : ∀ l : Fin 4096, ridx_main_v0 i l = ix3 (i 0) l (i 2) := fun l => funext fun a => Fin.ext (by
    match a with | ⟨0, _⟩ => rfl | ⟨1, _⟩ => rfl | ⟨2, _⟩ => rfl)
  have e3 : idx_main_v1 (idx_main_v2 i) = ix2 (i 0) (i 1) := funext fun a => Fin.ext (by
    match a with | ⟨0, _⟩ => rfl | ⟨1, _⟩ => rfl)
  rw [val_main_v3_apply, val_main_v0_apply, val_main_v2_apply, val_main_v1_apply]
  simp only [e1, e2, e3]
  rfl

end Cert.ReferenceIdeal.RefValue

end
-- ==== Proof.lean ====
/-
  Mean pooling of document states into entities: a batched matrix product scaled row by row by the reciprocal of a
  length, against the same contraction written as an einsum and divided by the lengths.

  Over the extended reals both programs compute, at batch `b`, entity `e` and feature `d`,

      (∑ l, mapping (b, e, l) · document (b, l, d)) / lengths (b, e)        (`Cert.MeanPool.pooledMean`).

  The kernel takes one batch per grid point: it multiplies that batch's `512 × 4096` mapping by its `4096 × 256`
  document states into a zero accumulator — the narrowing of both factors to a shorter float format is the identity
  on exact values, and a product into zero is the plain sum of products — and divides each row by that row's length,
  kept as a column; the eight blocks it writes back tile the result. The reference contracts all batches at once and
  divides by the lengths broadcast across the features. The two sums run over the same products in the same operand
  order and the two quotients are the same exact division, so the results agree term by term: no law of the
  extended reals beyond reading both sides at an index is used, and the finiteness of the inputs is never opened.

  The kernel's text read at the exact values is its own idealization (no operation was rewritten), so the
  idealization claim is trivial. The three programs' runs and their unchanged arguments come from the generated run
  of each program.
-/
import proofs.«103136_j50869592654341_1_alg».proof.Defs
import proofs.«103136_j50869592654341_1_alg».proof.Proof.Gen.Kernel
import proofs.«103136_j50869592654341_1_alg».proof.Proof.Gen.Kernel.Skeleton
import proofs.«103136_j50869592654341_1_alg».proof.Proof.Gen.Kernel.Launch
import proofs.«103136_j50869592654341_1_alg».proof.Proof.Gen.Kernel.Points
import proofs.«103136_j50869592654341_1_alg».proof.Proof.Gen.Kernel.Frame
import proofs.«103136_j50869592654341_1_alg».proof.Proof.Gen.KernelIdeal
import proofs.«103136_j50869592654341_1_alg».proof.Proof.Gen.KernelIdeal.Skeleton
import proofs.«103136_j50869592654341_1_alg».proof.Proof.Gen.KernelIdeal.Launch
import proofs.«103136_j50869592654341_1_alg».proof.Proof.Gen.KernelIdeal.Points
import proofs.«103136_j50869592654341_1_alg».proof.Proof.Gen.KernelIdeal.Frame
import proofs.«103136_j50869592654341_1_alg».proof.Proof.Gen.ReferenceIdeal
import proofs.«103136_j50869592654341_1_alg».proof.Proof.Gen.KernelIdeal.Value
import proofs.«103136_j50869592654341_1_alg».proof.Proof.Gen.ReferenceIdeal.Run
import proofs.«103136_j50869592654341_1_alg».proof.Proof.Gen.ReferenceIdeal.Read
import proofs.«103136_j50869592654341_1_alg».proof.Proof.Gen.Pre_finite_inputs
import proofs.«103136_j50869592654341_1_alg».proof.Proof.KernelMean
import proofs.«103136_j50869592654341_1_alg».proof.Proof.ReferenceMean
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading at the exact values. -/
theorem preserves : Cert.preserves_Kernel_KernelIdeal := trivial

/-- From memories that agree on the three arguments, the kernel's result array and the reference's both end at the
    pooled mean of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
